-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 40
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .bf16⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000x64, .bf16⟩
  | .hbm, ⟨31, _⟩ => ⟨S3300000x64, .f32⟩
  | .hbm, ⟨32, _⟩ => ⟨S_, .f32⟩
  | .hbm, ⟨33, _⟩ => ⟨S100000x64, .f32⟩
  | .hbm, ⟨34, _⟩ => ⟨S3300000x1, .i32⟩
  | .hbm, ⟨35, _⟩ => ⟨S100000x64, .f32⟩
  | .hbm, ⟨36, _⟩ => ⟨S1x64, .f32⟩
  | .hbm, ⟨37, _⟩ => ⟨S1x16, .f32⟩
  | .hbm, ⟨38, _⟩ => ⟨S100000x64, .f32⟩
  | .hbm, ⟨39, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x16, .f32⟩
  | .local _ .vmem, ⟨13, _⟩ => ⟨S1x16, .f32⟩
  | .local _ .vmem, ⟨14, _⟩ => ⟨S5000x64, .f32⟩
  | .local _ .vmem, ⟨15, _⟩ => ⟨S5000x64, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S16_S1x16 : S16.ShapeCasts S1x16
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x64, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x64, .f32⟩
  | .hbm, ⟨49, _⟩ => ⟨S3300000x1, .f32⟩
  | .hbm, ⟨50, _⟩ => ⟨S3300000x64, .f32⟩
  | .hbm, ⟨51, _⟩ => ⟨S3300000x64, .f32⟩
  | .hbm, ⟨52, _⟩ => ⟨S_, .f32⟩
  | .hbm, ⟨53, _⟩ => ⟨S100000x64, .f32⟩
  | .hbm, ⟨54, _⟩ => ⟨S3300000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its two results named.

  The program is four stretches: host operations, the first pipelined region (the scaled linear layer), host operations
  (the row gather and the accumulating scatter), the second region (normalisation, bias, rectifier and the output
  head). The generated frame follows the TensorCore's buffer contents through these four stretches as a fold
  (`Gen.W0` … `Gen.W4`) and ends with every unscoped buffer at `Gen.W4`. Its own conclusion keeps only the argument
  arrays; here the same run is read for the two result buffers as well: they end at `Gen.W4`, which at an output
  window's array is what the second region's write-backs leave (`Dat.arrAt` at the last grid point).
-/
import proofs.«119838_j30983894073976_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result buffers end at the last fold's
    contents and the argument arrays as launched. -/
theorem run_named : θ_run defs (onTc (τ := τ) (main (F := F))) ⟨m, fun _ => 0, ρ⟩ (fun r => ∀ c : Dev nD,
      r.2.mem ((c.tc : Thread nD τ).loc main_v27_0) = W4 m ρ c (Proc.devRef .tc main_v27_0)
      ∧ r.2.mem ((c.tc : Thread nD τ).loc main_v27_1) = W4 m ρ c (Proc.devRef .tc main_v27_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27_0 (by decide)),
       h c _ (mem_uc main_v27_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The first result's buffer is the second region's output window 5: it ends at what that region's write-backs leave. -/
theorem out_h (c : Dev nD) : W4 m ρ c (Proc.devRef .tc main_v27_0) = (dat1 (V3 m ρ) c).arrAt 5 cfg1.N :=
  W4_arr m ρ c 5

/-- The second result's buffer is the second region's output window 6. -/
theorem out_z (c : Dev nD) : W4 m ρ c (Proc.devRef .tc main_v27_1) = (dat1 (V3 m ρ) c).arrAt 6 cfg1.N :=
  W4_arr m ρ c 6

end Cert.KernelIdeal.RunNamed

end
-- ==== Proof.HostValues.lean ====
/-
  What the idealized kernel's host operations leave in the buffers the two regions read.

  Before the first region the host computes, from the edge list alone, the end-node index column (the edges' end
  nodes followed by every node once, for the self loops), the degree of every node as an accumulating scatter of ones,
  and its inverse square root stood up as one column. Between the regions it gathers the rows of the first region's
  result by the start-node index, accumulates them by end node, and lays the two bias vectors down as rows. These
  are the same operations, on the same edge list, that the reference program starts with: each buffer is stated here as
  the reference's own stage of that name, so that the two programs' index arrays and degree vectors are one term.
-/
import proofs.«119838_j30983894073976_2_alg».proof.Proof.KernelRun
import proofs.«119838_j30983894073976_2_alg».proof.Proof.Gen.ReferenceIdeal.Read
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## At the first region's entry -/

/-- The node features are as launched. -/
theorem V1_arg0 (c : Dev nD) : V1 (F := Ideal) m ρ c main_arg0 = m ((c : Thread nD τ).loc main_arg0) := by
  show StableHlo.after hostOps0 (W0 m ρ c) (Proc.devRef .tc main_arg0) = _
  after_results

/-- The first weight matrix is as launched. -/
theorem V1_arg2 (c : Dev nD) : V1 (F := Ideal) m ρ c main_arg2 = m ((c : Thread nD τ).loc main_arg2) := by
  show StableHlo.after hostOps0 (W0 m ρ c) (Proc.devRef .tc main_arg2) = _
  after_results

/-- The scale column: the inverse square root of the degree vector, one entry per row. -/
theorem V1_v12 (c : Dev nD) : V1 (F := Ideal) m ρ c main_v12
    = shapeCast S100000x1 (Cert.ReferenceIdeal.Read.val_main_v11 (F := Ideal) (m ((c : Thread nD τ).loc main_arg1))) shapeCasts_S100000_S100000x1 := by
  show StableHlo.after hostOps0 (W0 m ρ c) (Proc.devRef .tc main_v12) = _
  after_results
  rfl

/-! ## At the first region's exit: what the host operations between the regions read -/

/-- The start-node index vector (edges' start nodes, then every node). -/
theorem W2_v3 (c : Dev nD) : W2 (F := Ideal) m ρ c (Proc.devRef .tc main_v3)
    = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

/-- The end-node index vector. -/
theorem W2_v6 (c : Dev nD) : W2 (F := Ideal) m ρ c (Proc.devRef .tc main_v6)
    = Cert.ReferenceIdeal.Read.val_main_v6 (F := Ideal) (m ((c : Thread nD τ).loc main_arg1)) :=
  (W2_of_ne m ρ c main_v6 (by decide)).trans (by
    show StableHlo.after hostOps0 (W0 m ρ c) (Proc.devRef .tc main_v6) = _
    after_results
    rfl)

/-- The scale column is untouched by the first region. -/
theorem W2_v12 (c : Dev nD) : W2 (F := Ideal) m ρ c (Proc.devRef .tc main_v12)
    = shapeCast S100000x1 (Cert.ReferenceIdeal.Read.val_main_v11 (F := Ideal) (m ((c : Thread nD τ).loc main_arg1))) shapeCasts_S100000_S100000x1 :=
  ((W2_arr m ρ c 2).trans (((dat0 (V1 m ρ) c).arrAt_in 2 rfl _).trans (A_eq0 (V1 m ρ) c 2))).trans (V1_v12 m ρ c)

/-- The first region's result array. -/
theorem W2_v13 (c : Dev nD) : W2 (F := Ideal) m ρ c (Proc.devRef .tc main_v13) = (dat0 (V1 m ρ) c).arrAt 3 cfg0.N :=
  W2_arr m ρ c 3

theorem W2_arg3 (c : Dev nD) : W2 (F := Ideal) m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem W2_arg4 (c : Dev nD) : W2 (F := Ideal) m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_arg5 (c : Dev nD) : W2 (F := Ideal) m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## At the second region's entry -/

/-- The aggregate: the rows of the first region's result gathered by start node, accumulated by end node into zeros. -/
theorem V3_v24 (c : Dev nD) : V3 (F := Ideal) m ρ c main_v24
    = Host.scatterAdd (F := Ideal) scatter_S100000x64_S3300000x1_S3300000x64_1_0_0_1 (Cert.ReferenceIdeal.Read.val_main_v38 (F := Ideal))
        (Cert.ReferenceIdeal.Read.val_main_v39 (F := Ideal) (m ((c : Thread nD τ).loc main_arg1)))
        (extf (F := Ideal) .f32 (Host.gather gather_S100000x64_S3300000x1_S3300000x64_1_0_n_n_0_1_164 ((dat0 (V1 m ρ) c).arrAt 3 cfg0.N)
          (Cert.ReferenceIdeal.Read.val_main_v33 (F := Ideal) (m ((c : Thread nD τ).loc main_arg1)))) bitsLt_bf16_f32) := by
  show StableHlo.after hostOps1 (W2 m ρ c) (Proc.devRef .tc main_v24) = _
  after_results
  rw [W2_v3, W2_v6, W2_v13]
  rfl

/-- The scale column again. -/
theorem V3_v12 (c : Dev nD) : V3 (F := Ideal) m ρ c main_v12
    = shapeCast S100000x1 (Cert.ReferenceIdeal.Read.val_main_v11 (F := Ideal) (m ((c : Thread nD τ).loc main_arg1))) shapeCasts_S100000_S100000x1 := by
  show StableHlo.after hostOps1 (W2 m ρ c) (Proc.devRef .tc main_v12) = _
  after_results
  exact W2_v12 m ρ c

/-- The first bias laid down as a row. -/
theorem V3_v25 (c : Dev nD) : V3 (F := Ideal) m ρ c main_v25
    = shapeCast S1x64 (m ((c : Thread nD τ).loc main_arg3)) shapeCasts_S64_S1x64 := by
  show StableHlo.after hostOps1 (W2 m ρ c) (Proc.devRef .tc main_v25) = _
  after_results
  rw [W2_arg3]
  rfl

/-- The output weights are as launched. -/
theorem V3_arg4 (c : Dev nD) : V3 (F := Ideal) m ρ c main_arg4 = m ((c : Thread nD τ).loc main_arg4) := by
  show StableHlo.after hostOps1 (W2 m ρ c) (Proc.devRef .tc main_arg4) = _
  after_results
  exact W2_arg4 m ρ c

/-- The output bias laid down as a row. -/
theorem V3_v26 (c : Dev nD) : V3 (F := Ideal) m ρ c main_v26
    = shapeCast S1x16 (m ((c : Thread nD τ).loc main_arg5)) shapeCasts_S16_S1x16 := by
  show StableHlo.after hostOps1 (W2 m ρ c) (Proc.devRef .tc main_v26) = _
  after_results
  rw [W2_arg5]
  rfl

end Cert.KernelIdeal.HostValues

end
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.RefRead.lean ====
/-
  The reference program's stages read at one index, at the ideal instance.

  The reference gathers, for every edge e, the row xw (src e) of the product x · W, scales it by the product of the
  two end nodes' factors dinv (src e) · dinv (dst e), accumulates the scaled rows by end node, adds the bias, applies
  the rectifier, and finishes with the output head. Read at an index: the gathers read the operand at the clamped index
  word (the same clamp for a matrix's rows and a vector's entries), a negative index word is first wrapped by the
  number of nodes — which leaves a word that is a node number as it is —, and the two matrix products are sums over
  the contracted coordinate.
-/
import proofs.«119838_j30983894073976_2_alg».proof.Proof.Gen.ReferenceIdeal.Read
import proofs.«119838_j30983894073976_2_alg».proof.Proof.LibGatherRows
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefRead

open Cert.ReferenceIdeal Cert.ReferenceIdeal.Read Idealize.ShloMosaic Idealize.ShloMosaic.ValueIdx Cert.Lib

/-! ## The two gathers' dimension numbers -/

theorem rowGather : IsRowGather gather_S100000x64_S3300000x1_S3300000x64_1_0_n_n_0_1_164 := ⟨rfl, rfl, rfl, rfl, rfl, rfl, rfl⟩
theorem vecGather : IsVecGather gather_S100000_S3300000x1_S3300000_n_0_n_n_0_1_1 := ⟨rfl, rfl, rfl, rfl, rfl, rfl, rfl⟩

theorem hN : 0 < 100000 := by decide

/-! ## Wrapping a negative index word leaves a node number alone -/

/-- A word that is not negative, read signed, is not below zero: the wrap's select keeps it. -/
theorem wrap_of_nonneg (x y : BitVec 32) (h : 0 ≤ x.toInt) :
    Scalar.select (IntOp.cmpi .slt x 0#32) y x = x := by
  have hs : x.slt 0#32 = false := by
    rw [Bool.eq_false_iff]
    intro hs
    rw [BitVec.slt_iff_toInt_lt] at hs
    have h0 : (0#32 : BitVec 32).toInt = 0 := by decide
    omega
  unfold IntOp.cmpi
  simp only [hs]
  exact select_zero _ _

variable (x0 : (⟨S100000x128, .f32⟩ : BufTy).Contents (Elt Ideal)) (x1 : (⟨S2x3200000, .i32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-- The end-node index column read at row r is the end-node index vector at r. -/
theorem dst_col_at (r : Fin 3300000) :
    val_main_v39 (F := Ideal) x1 (ix2 r (0 : Fin 1)) = val_main_v6 (F := Ideal) x1 (ix1 r) :=
  (val_main_v39_apply x1 (ix2 r (0 : Fin 1))).trans (congrArg _ (funext fun a => by match a with | ⟨0, _⟩ => rfl))

/-- The wrapped end-node index column at row r, when the end-node word is a node number p: still p. -/
theorem dstN_row (r : Fin 3300000) (p : Fin 100000)
    (h : (val_main_v39 (F := Ideal) x1 (ix2 r (0 : Fin 1))).toInt = (p.val : Int)) :
    clampRow 100000 hN (val_main_v24 (F := Ideal) x1) r = p := by
  apply clampRow_of_toInt
  rw [dst_col_at] at h
  have e : val_main_v24 (F := Ideal) x1 (ix2 r (0 : Fin 1)) = val_main_v6 (F := Ideal) x1 (ix1 r) := by
    refine (val_main_v24_apply x1 (ix2 r (0 : Fin 1))).trans ?_
    have ei : idx_main_v24 (ix2 r (0 : Fin 1)) = ix1 r := funext fun a => by match a with | ⟨0, _⟩ => rfl
    rw [ei, val_main_v23_apply, val_main_v20_apply, val_main_v19_apply, val_main_c_2_apply]
    exact wrap_of_nonneg _ _ (by rw [h]; exact Int.natCast_nonneg _)
  rw [e, h]

/-- The two wrapped start-node index columns (one per gather that uses it) are one array. -/
theorem src_cols_eq : val_main_v17 (F := Ideal) x1 = val_main_v33 (F := Ideal) x1 := rfl

/-- The scaled message of edge r, column j: row (src r) of x · W at j, times dinv (src r) · dinv (dst r). -/
theorem msg_at (r : Fin 3300000) (j : Fin 64) :
    val_main_v37 (F := Ideal) x0 x1 x2 (ix2 r j)
      = (∑ k : Fin 128, x0 (ix2 (clampRow 100000 hN (val_main_v33 (F := Ideal) x1) r) k) * x2 (ix2 k j))
        * (val_main_v11 (F := Ideal) x1 (ix1 (clampRow 100000 hN (val_main_v33 (F := Ideal) x1) r))
           * val_main_v11 (F := Ideal) x1 (ix1 (clampRow 100000 hN (val_main_v24 (F := Ideal) x1) r))) := by
  rw [val_main_v37_apply]
  show val_main_v34 (F := Ideal) x0 x1 x2 (ix2 r j) * val_main_v36 (F := Ideal) x1 (ix2 r j) = _
  have eg : val_main_v34 (F := Ideal) x0 x1 x2 (ix2 r j)
      = ∑ k : Fin 128, x0 (ix2 (clampRow 100000 hN (val_main_v33 (F := Ideal) x1) r) k) * x2 (ix2 k j) := by
    unfold val_main_v34
    refine (row_gather_apply hN _ rowGather _ _ r j).trans ?_
    refine (val_main_v27_apply x0 x2 _).trans ?_
    refine Finset.sum_congr rfl fun k _ => ?_
    have el : lidx_main_v27 (ix2 (clampRow 100000 hN (val_main_v33 (F := Ideal) x1) r) j) k
        = ix2 (clampRow 100000 hN (val_main_v33 (F := Ideal) x1) r) k := funext fun a => by
      match a with
      | ⟨0, _⟩ => rfl
      | ⟨1, _⟩ => rfl
    have er : ridx_main_v27 (ix2 (clampRow 100000 hN (val_main_v33 (F := Ideal) x1) r) j) k = ix2 k j := funext fun a => by
      match a with
      | ⟨0, _⟩ => rfl
      | ⟨1, _⟩ => rfl
    rw [el, er]
  have en : val_main_v36 (F := Ideal) x1 (ix2 r j)
      = val_main_v11 (F := Ideal) x1 (ix1 (clampRow 100000 hN (val_main_v33 (F := Ideal) x1) r))
        * val_main_v11 (F := Ideal) x1 (ix1 (clampRow 100000 hN (val_main_v24 (F := Ideal) x1) r)) := by
    refine (val_main_v36_apply x1 (ix2 r j)).trans ?_
    refine (val_main_v35_apply x1 _).trans ?_
    have ei : idx_main_v35 (idx_main_v36 (ix2 r j)) = ix1 r := funext fun a => by match a with | ⟨0, _⟩ => rfl
    rw [ei, val_main_v26_apply]
    show val_main_v18 (F := Ideal) x1 (ix1 r) * val_main_v25 (F := Ideal) x1 (ix1 r) = _
    have e18 : val_main_v18 (F := Ideal) x1 (ix1 r)
        = val_main_v11 (F := Ideal) x1 (ix1 (clampRow 100000 hN (val_main_v33 (F := Ideal) x1) r)) := by
      unfold val_main_v18
      exact vec_gather_apply hN _ vecGather _ _ r
    have e25 : val_main_v25 (F := Ideal) x1 (ix1 r)
        = val_main_v11 (F := Ideal) x1 (ix1 (clampRow 100000 hN (val_main_v24 (F := Ideal) x1) r)) := by
      unfold val_main_v25
      exact vec_gather_apply hN _ vecGather _ _ r
    rw [e18, e25]
  rw [eg, en]

/-- The first result at (v, j): the rectifier of the aggregate plus the bias. -/
theorem h_at (v : Fin 100000) (j : Fin 64) :
    val_main_v44 (F := Ideal) x0 x1 x2 x3 (ix2 v j)
      = max (val_main_v40 (F := Ideal) x0 x1 x2 (ix2 v j) + x3 (ix1 j)) 0 := by
  rw [val_main_v44_apply, val_main_v43_apply, val_main_v42_apply, val_main_v41_apply, val_main_call0_v0_apply,
    val_main_call0_cst_apply]
  have ei : idx_main_v41 (idx_main_v42 (ix2 v j)) = ix1 j := funext fun a => by match a with | ⟨0, _⟩ => rfl
  rw [ei]
  show max (val_main_v40 (F := Ideal) x0 x1 x2 (ix2 v j) + x3 (ix1 j)) (Ideal.ofBits .f32 0x00000000#32) = _
  rw [Ideal.ofBits_zero_f32]

/-- The second result at (v, o): row v of the first result times column o of the output weights, plus the bias. -/
theorem z_at (v : Fin 100000) (o : Fin 16) :
    val_main_v48 (F := Ideal) x0 x1 x2 x3 x4 x5 (ix2 v o)
      = (∑ k : Fin 64, val_main_v44 (F := Ideal) x0 x1 x2 x3 (ix2 v k) * x4 (ix2 k o)) + x5 (ix1 o) := by
  rw [val_main_v48_apply, val_main_v47_apply, val_main_v46_apply]
  have ei : idx_main_v46 (idx_main_v47 (ix2 v o)) = ix1 o := funext fun a => by match a with | ⟨0, _⟩ => rfl
  rw [ei]
  show val_main_v45 (F := Ideal) x0 x1 x2 x3 x4 (ix2 v o) + x5 (ix1 o) = _
  refine congrArg (· + x5 (ix1 o)) ?_
  refine (val_main_v45_apply x0 x1 x2 x3 x4 _).trans ?_
  refine Finset.sum_congr rfl fun k _ => ?_
  have el : lidx_main_v45 (ix2 v o) k = ix2 v k := funext fun a => by
    match a with
    | ⟨0, _⟩ => rfl
    | ⟨1, _⟩ => rfl
  have er : ridx_main_v45 (ix2 v o) k = ix2 k o := funext fun a => by
    match a with
    | ⟨0, _⟩ => rfl
    | ⟨1, _⟩ => rfl
  rw [el, er]

end Cert.ReferenceIdeal.RefRead

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.PayloadAt.lean ====
/-
  The two kernel bodies' arithmetic read at one index, at the ideal instance.

  At the ideal instance every float is an extended real, every operation is exact, and a format change is the
  identity. So the first body's store at (p, j) is the inner product of row p of x with column j of W, times the
  row's scale; the second body's first store at (p, j) is max (a · d + b, 0); and its second store at (p, o) is the
  inner product of row p of the first store with column o of the output weights, plus the output bias.
-/
import proofs.«119838_j30983894073976_2_alg».proof.Proof.Gen.KernelIdeal.Skeleton
import proofs.«119838_j30983894073976_2_alg».proof.Proof.LibMatmulAt
import proofs.«119838_j30983894073976_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.PayloadAt
open Cert.KernelIdeal Cert.KernelIdeal.Gen Idealize.ShloMosaic Idealize.ShloMosaic.ValueIdx

/-! ## Where the two contractions' operand indices sit -/

private abbrev D0 := dot_S5000x128_S128x64_S5000x64_1_0_0_1_n_n
private abbrev D1 := dot_S5000x64_S64x16_S5000x16_1_0_0_1_n_n

/-- The first product's left index reads the result's row on its first axis … -/
theorem d0_lhs_0 (i : S5000x64.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
/-- … and the contraction position on its second; … -/
theorem d0_lhs_1 (i : S5000x64.Idx) (q : D0.contr.Idx) : (D0.lhsIdx i q 1).val = (q ⟨0, by decide⟩).val :=
  D0.lhsIdx_val_of_single rfl i q
/-- … the right index reads the contraction position on its first axis … -/
theorem d0_rhs_0 (i : S5000x64.Idx) (q : D0.contr.Idx) : (D0.rhsIdx i q 0).val = (q ⟨0, by decide⟩).val :=
  D0.rhsIdx_val_of_single rfl i q
/-- … and the result's column on its second. -/
theorem d0_rhs_1 (i : S5000x64.Idx) (q : D0.contr.Idx) : (D0.rhsIdx i q 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- The same four facts for the second product. -/
theorem d1_lhs_0 (i : S5000x16.Idx) (q : D1.contr.Idx) : (D1.lhsIdx i q 0).val = (i 0).val := by
  unfold DotDims.lhsIdx
  rw [dif_neg (show ¬(0 : Fin S5000x64.rank) ∈ D1.lhsBatch by decide), dif_pos (show (0 : Fin S5000x64.rank) ∈ D1.lhsNonContracting by decide)]
  rfl
theorem d1_lhs_1 (i : S5000x16.Idx) (q : D1.contr.Idx) : (D1.lhsIdx i q 1).val = (q ⟨0, by decide⟩).val :=
  D1.lhsIdx_val_of_single rfl i q
theorem d1_rhs_0 (i : S5000x16.Idx) (q : D1.contr.Idx) : (D1.rhsIdx i q 0).val = (q ⟨0, by decide⟩).val :=
  D1.rhsIdx_val_of_single rfl i q
theorem d1_rhs_1 (i : S5000x16.Idx) (q : D1.contr.Idx) : (D1.rhsIdx i q 1).val = (i 1).val := by
  unfold DotDims.rhsIdx
  rw [dif_neg (show ¬(1 : Fin S64x16.rank) ∈ D1.rhsBatch by decide), dif_pos (show (1 : Fin S64x16.rank) ∈ D1.rhsNonContracting by decide)]
  rfl

/-! ## The payloads at one index -/

/-- The first body: (row p of x) · (column j of W), times the row's scale. -/
theorem pay0_at (x0 : Vec Ideal S5000x128 .f32) (x1 : Vec Ideal S128x64 .f32) (x2 : Vec Ideal S5000x1 .f32) (p : Fin 5000) (j : Fin 64) :
    k0_pay1 (F := Ideal) x0 x1 x2 (ix2 p j) = (∑ k : Fin 128, x0 (ix2 p k) * x1 (ix2 k j)) * x2 (ix2 p (0 : Fin 1)) := by
  unfold k0_pay1
  show matmul (F := Ideal) D0 none (truncf .bf16 x0 bitsLt_bf16_f32) (truncf .bf16 x1 bitsLt_bf16_f32)
        (constant S5000x64 .f32 0x00000000#32) (ix2 p j)
      * broadcastTo S5000x64 (shapeCast S5000x1 x2 shapeCasts_S5000x1_S5000x1) broadcasts_S5000x1_S5000x64 (ix2 p j) = _
  refine congrArg₂ (· * ·) ?_ ?_
  · exact MatmulAt.matmul_zero_ix2 D0 rfl rfl d0_lhs_0 d0_lhs_1 d0_rhs_0 d0_rhs_1 none
      (truncf .bf16 x0 bitsLt_bf16_f32) (truncf .bf16 x1 bitsLt_bf16_f32) p j
  · exact (Cert.LibColBroadcast.broadcastTo_a1_ab_apply _ _ p j).trans
      (congrFun (shapeCast_self x2 shapeCasts_S5000x1_S5000x1) _)

/-- The second body's first store: max (a · d + b, 0). -/
theorem pay1_at (a : Vec Ideal S5000x64 .f32) (d : Vec Ideal S5000x1 .f32) (b : Vec Ideal S1x64 .f32) (p : Fin 5000) (j : Fin 64) :
    k1_pay1 (F := Ideal) a d b (ix2 p j) = max (a (ix2 p j) * d (ix2 p (0 : Fin 1)) + b (ix2 (0 : Fin 1) j)) 0 := by
  unfold k1_pay1
  show max (shapeCast S5000x64 a shapeCasts_S5000x64_S5000x64 (ix2 p j)
        * broadcastTo S5000x64 (shapeCast S5000x1 d shapeCasts_S5000x1_S5000x1) broadcasts_S5000x1_S5000x64 (ix2 p j)
        + broadcastTo S5000x64 (shapeCast S1x64 b shapeCasts_S1x64_S1x64) broadcasts_S1x64_S5000x64 (ix2 p j))
      (Ideal.ofBits .f32 0x00000000#32) = _
  have e1 : shapeCast S5000x64 a shapeCasts_S5000x64_S5000x64 (ix2 p j) = a (ix2 p j) :=
    congrFun (shapeCast_self a shapeCasts_S5000x64_S5000x64) _
  have e2 : broadcastTo S5000x64 (shapeCast S5000x1 d shapeCasts_S5000x1_S5000x1) broadcasts_S5000x1_S5000x64 (ix2 p j)
      = d (ix2 p (0 : Fin 1)) :=
    (Cert.LibColBroadcast.broadcastTo_a1_ab_apply _ _ p j).trans (congrFun (shapeCast_self d shapeCasts_S5000x1_S5000x1) _)
  have e3 : broadcastTo S5000x64 (shapeCast S1x64 b shapeCasts_S1x64_S1x64) broadcasts_S1x64_S5000x64 (ix2 p j)
      = b (ix2 (0 : Fin 1) j) :=
    (broadcastTo_1b_ab_apply _ _ p j).trans (congrFun (shapeCast_self b shapeCasts_S1x64_S1x64) _)
  rw [e1, e2, e3, Ideal.ofBits_zero_f32]

/-- The second body's second store: (row p of the first store) · (column o of W_out) + bias. -/
theorem pay2_at (a : Vec Ideal S5000x64 .f32) (d : Vec Ideal S5000x1 .f32) (b : Vec Ideal S1x64 .f32) (wo : Vec Ideal S64x16 .f32) (bo : Vec Ideal S1x16 .f32) (p : Fin 5000) (o : Fin 16) :
    k1_pay2 (F := Ideal) a d b wo bo (ix2 p o) = (∑ k : Fin 64, k1_pay1 (F := Ideal) a d b (ix2 p k) * wo (ix2 k o)) + bo (ix2 (0 : Fin 1) o) := by
  unfold k1_pay2
  show matmul (F := Ideal) D1 none (truncf .bf16 (k1_pay1 (F := Ideal) a d b) bitsLt_bf16_f32) (truncf .bf16 wo bitsLt_bf16_f32)
        (constant S5000x16 .f32 0x00000000#32) (ix2 p o)
      + broadcastTo S5000x16 (shapeCast S1x16 bo shapeCasts_S1x16_S1x16) broadcasts_S1x16_S5000x16 (ix2 p o) = _
  refine congrArg₂ (· + ·) ?_ ?_
  · exact MatmulAt.matmul_zero_ix2 D1 rfl rfl d1_lhs_0 d1_lhs_1 d1_rhs_0 d1_rhs_1 none
      (truncf .bf16 (k1_pay1 (F := Ideal) a d b) bitsLt_bf16_f32) (truncf .bf16 wo bitsLt_bf16_f32) p o
  · exact (broadcastTo_1b_ab_apply _ _ p o).trans (congrFun (shapeCast_self bo shapeCasts_S1x16_S1x16) _)

end Cert.KernelIdeal.PayloadAt
end
-- ==== Proof.RegionValues.lean ====
/-
  From blocks to the array: each pipelined region's output array after the region, as one function of the arrays the
  region finds at entry, index by index.

  Both regions run 20 grid points over blocks of 5000 rows. At point t the row-blocked windows hold rows
  5000 t … 5000 t + 4999 of their arrays and the whole-array windows hold their arrays; the body's one store per
  output is the payload of those blocks, which at row p and column q of the block is the payload's arithmetic at row
  5000 t + p of the arrays. Every point writes its block back and the 20 blocks tile the 100000 rows, so the output
  array ends as that arithmetic at every index.
-/
import proofs.«119838_j30983894073976_2_alg».proof.Proof.Gen.KernelIdeal.Frame
import proofs.«119838_j30983894073976_2_alg».proof.Proof.PayloadAt
import Idealize.ShloMosaic.Lib.Pipeline.Value
import Idealize.ShloMosaic.Lib.ValueIdx

set_option maxRecDepth 16384
noncomputable section
namespace Cert.KernelIdeal.RegionValues
open Cert.KernelIdeal Cert.KernelIdeal.Gen Cert.KernelIdeal.PayloadAt Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Region 0: row i₀ of x times column i₁ of W, scaled by the row's factor. -/
def Gxws (x : S100000x128.Idx → Elt Ideal .f32) (w : S128x64.Idx → Elt Ideal .f32) (d : S100000x1.Idx → Elt Ideal .f32) : S100000x64.Idx → Elt Ideal .bf16 :=
  fun i => (∑ k : Fin 128, x (ix2 (i 0 : Fin 100000) k) * w (ix2 k (i 1 : Fin 64))) * d (ix2 (i 0 : Fin 100000) (0 : Fin 1))
/-- Region 1, first output: max (a · d + b, 0). -/
def Gh (a : S100000x64.Idx → Elt Ideal .f32) (d : S100000x1.Idx → Elt Ideal .f32) (b : S1x64.Idx → Elt Ideal .f32) : S100000x64.Idx → Elt Ideal .f32 :=
  fun i => max (a (ix2 (i 0 : Fin 100000) (i 1 : Fin 64)) * d (ix2 (i 0 : Fin 100000) (0 : Fin 1)) + b (ix2 (0 : Fin 1) (i 1 : Fin 64))) 0
/-- Region 1, second output: row i₀ of the first output times column i₁ of W_out, plus the bias. -/
def Gz (a : S100000x64.Idx → Elt Ideal .f32) (d : S100000x1.Idx → Elt Ideal .f32) (b : S1x64.Idx → Elt Ideal .f32) (wo : S64x16.Idx → Elt Ideal .f32) (bo : S1x16.Idx → Elt Ideal .f32) : S100000x16.Idx → Elt Ideal .f32 :=
  fun i => (∑ k : Fin 64, Gh a d b (ix2 (i 0 : Fin 100000) k) * wo (ix2 k (i 1 : Fin 16))) + bo (ix2 (0 : Fin 1) (i 1 : Fin 16))

/-- The zero offsets of a rank-2 rectangle, however spelt. -/
theorem hz2 : (![0, 0] : Fin 2 → Nat) = fun _ => 0 := funext fun a => by fin_cases a <;> rfl

/-! ## Region 0 -/

/-- The block index of every window at every point: the row-blocked windows sit at block row t, the weights at
    block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point t, at (p, k): row 5000 t + p of x. -/
theorem iblk0_0_apply (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → Elt Ideal .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- Window 1's block at every point, at (k, q): the weights themselves. -/
theorem iblk0_1_apply (c : Dev nD) (t : Fin cfg0.N) (k : Fin 128) (q : Fin 64) :
    (iblk0 V c 1 t : Vec Ideal S128x64 .f32) (ix2 k q) = (V c main_arg2 : S128x64.Idx → Elt Ideal .f32) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- Window 2's block at point t, at (p, 0): row 5000 t + p of the scales. -/
theorem iblk0_2_apply (c : Dev nD) (t : Fin cfg0.N) (p : Fin 5000) (r : Fin 100000) (hr : r.val = t.val * 5000 + p.val) :
    (iblk0 V c 2 t : Vec Ideal S5000x1 .f32) (ix2 p (0 : Fin 1)) = (V c main_v12 : S100000x1.Idx → Elt Ideal .f32) (ix2 r (0 : Fin 1)) := by
  obtain ⟨-, -, -, -, e0, e1, -⟩ := idx_facts0 t
  unfold iblk0
  rw [View.read_apply]
  show V c main_v12 _ = V c main_v12 _
  congr 1
  funext a
  apply Fin.ext
  match a with
  | ⟨0, _⟩ => show win0_2.index t (0 : Fin 2) * 5000 + 1 * p.val = r.val; omega
  | ⟨1, _⟩ => show win0_2.index t (1 : Fin 2) * 1 + 1 * 0 = 0; omega

/-- The output window's block at point t sends (p, q) to row 5000 t + p, column q of the array. -/
theorem emb0_3 (t : Fin cfg0.N) (p : Fin 5000) (q : Fin 64) (r : Fin 100000) (hr : r.val = t.val * 5000 + p.val) :
    (((cfg0.win 3).blk t).view.emb (ix2 p q) : S100000x64.Idx) = ix2 r q := by
  obtain ⟨-, -, -, -, -, -, e0, e1⟩ := idx_facts0 t
  funext a
  apply Fin.ext
  match a with
  | ⟨0, _⟩ => show win0_3.index t (0 : Fin 2) * 5000 + 1 * p.val = r.val; omega
  | ⟨1, _⟩ => show win0_3.index t (1 : Fin 2) * 64 + 1 * q.val = q.val; omega

/-- The closed form at row r, column q. -/
theorem Gxws_ix2 (x : S100000x128.Idx → Elt Ideal .f32) (w : S128x64.Idx → Elt Ideal .f32) (d : S100000x1.Idx → Elt Ideal .f32)
    (r : Fin 100000) (q : Fin 64) :
    Gxws x w d (ix2 r q) = (∑ k : Fin 128, x (ix2 r k) * w (ix2 k q)) * d (ix2 r (0 : Fin 1)) := rfl

/-- What point t writes back is block t of the closed form of the arrays the region finds. -/
theorem flushed0_eq (c : Dev nD) (t : Fin cfg0.N) :
    (dat0 (F := Ideal) V c).flushed 3 t
      = ((cfg0.win 3).blk t).view.read (Elt Ideal) (Gxws (V c main_arg0) (V c main_arg2) (V c main_v12)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x64) hz2, View.ld_unit_zero (S := S5000x1) hz2]
  have ht : t.val < 20 := lt_of_lt_of_eq t.isLt N_0
  funext y
  obtain ⟨p, q, rfl⟩ : ∃ (p : Fin 5000) (q : Fin 64), y = ix2 p q := ⟨y 0, y 1, eq_ix2 y⟩
  have hp : p.val < 5000 := p.isLt
  obtain ⟨r, hr⟩ : ∃ r : Fin 100000, r.val = t.val * 5000 + p.val := ⟨⟨t.val * 5000 + p.val, by omega⟩, rfl⟩
  show k0_pay1 (F := Ideal) (iblk0 V c 0 t) (iblk0 V c 1 t) (iblk0 V c 2 t) (ix2 p q)
    = Gxws (V c main_arg0) (V c main_arg2) (V c main_v12) (((cfg0.win 3).blk t).view.emb (ix2 p q))
  refine (pay0_at _ _ _ p q).trans ?_
  refine Eq.trans ?_ (congrArg (Gxws (V c main_arg0) (V c main_arg2) (V c main_v12)) (emb0_3 t p q r hr).symm)
  refine Eq.trans ?_ (Gxws_ix2 _ _ _ r q).symm
  refine congrArg₂ (· * ·) (Finset.sum_congr rfl fun k _ => congrArg₂ (· * ·) ?_ ?_) ?_
  · exact iblk0_0_apply V c t p k r hr
  · exact iblk0_1_apply V c t k q
  · exact iblk0_2_apply V c t p r hr

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Row r of the output array is in the block of point r / 5000, which writes back. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- Region 0's output array after the region: the closed form of the arrays the region finds. -/
theorem final0 (c : Dev nD) : (dat0 (F := Ideal) V c).arrAt 3 cfg0.N = Gxws (V c main_arg0) (V c main_arg2) (V c main_v12) :=
  (dat0 (F := Ideal) V c).arrAt_eq_of_cover 3 (Gxws (V c main_arg0) (V c main_arg2) (V c main_v12))
    (fun t _ => flushed0_eq V c t) cover0

/-! ## Region 1 -/

/-- The block index of every window at every point: the row-blocked windows sit at block row t, the bias and the
    output weights at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at point t, at (p, q): row 5000 t + p of the first input array. -/
theorem iblk1_0_apply (c : Dev nD) (t : Fin cfg1.N) (p : Fin 5000) (q : Fin 64) (r : Fin 100000) (hr : r.val = t.val * 5000 + p.val) :
    (iblk1 V c 0 t : Vec Ideal S5000x64 .f32) (ix2 p q) = (V c main_v24 : S100000x64.Idx → Elt Ideal .f32) (ix2 r q) := by
  obtain ⟨e0, e1, -⟩ := idx_facts1 t
  unfold iblk1
  rw [View.read_apply]
  show V c main_v24 _ = V c main_v24 _
  congr 1
  funext a
  apply Fin.ext
  match a with
  | ⟨0, _⟩ => show win1_0.index t (0 : Fin 2) * 5000 + 1 * p.val = r.val; omega
  | ⟨1, _⟩ => show win1_0.index t (1 : Fin 2) * 64 + 1 * q.val = q.val; omega

/-- Window 1's block at point t, at (p, 0): row 5000 t + p of the scales. -/
theorem iblk1_1_apply (c : Dev nD) (t : Fin cfg1.N) (p : Fin 5000) (r : Fin 100000) (hr : r.val = t.val * 5000 + p.val) :
    (iblk1 V c 1 t : Vec Ideal S5000x1 .f32) (ix2 p (0 : Fin 1)) = (V c main_v12 : S100000x1.Idx → Elt Ideal .f32) (ix2 r (0 : Fin 1)) := by
  obtain ⟨-, -, e0, e1, -⟩ := idx_facts1 t
  unfold iblk1
  rw [View.read_apply]
  show V c main_v12 _ = V c main_v12 _
  congr 1
  funext a
  apply Fin.ext
  match a with
  | ⟨0, _⟩ => show win1_1.index t (0 : Fin 2) * 5000 + 1 * p.val = r.val; omega
  | ⟨1, _⟩ => show win1_1.index t (1 : Fin 2) * 1 + 1 * 0 = 0; omega

/-- Window 2's block at every point, at (0, q): the bias itself. -/
theorem iblk1_2_apply (c : Dev nD) (t : Fin cfg1.N) (q : Fin 64) :
    (iblk1 V c 2 t : Vec Ideal S1x64 .f32) (ix2 (0 : Fin 1) q) = (V c main_v25 : S1x64.Idx → Elt Ideal .f32) (ix2 (0 : Fin 1) q) := by
  obtain ⟨-, -, -, -, e0, e1, -⟩ := idx_facts1 t
  unfold iblk1
  rw [View.read_apply]
  show V c main_v25 _ = V c main_v25 _
  congr 1
  funext a
  apply Fin.ext
  match a with
  | ⟨0, _⟩ => show win1_2.index t (0 : Fin 2) * 1 + 1 * 0 = 0; omega
  | ⟨1, _⟩ => show win1_2.index t (1 : Fin 2) * 64 + 1 * q.val = q.val; omega

/-- Window 3's block at every point, at (k, o): the output weights themselves. -/
theorem iblk1_3_apply (c : Dev nD) (t : Fin cfg1.N) (k : Fin 64) (o : Fin 16) :
    (iblk1 V c 3 t : Vec Ideal S64x16 .f32) (ix2 k o) = (V c main_arg4 : S64x16.Idx → Elt Ideal .f32) (ix2 k o) := by
  obtain ⟨-, -, -, -, -, -, e0, e1, -⟩ := idx_facts1 t
  unfold iblk1
  rw [View.read_apply]
  show V c main_arg4 _ = V c main_arg4 _
  congr 1
  funext a
  apply Fin.ext
  match a with
  | ⟨0, _⟩ => show win1_3.index t (0 : Fin 2) * 64 + 1 * k.val = k.val; omega
  | ⟨1, _⟩ => show win1_3.index t (1 : Fin 2) * 16 + 1 * o.val = o.val; omega

/-- Window 4's block at every point, at (0, o): the output bias itself. -/
theorem iblk1_4_apply (c : Dev nD) (t : Fin cfg1.N) (o : Fin 16) :
    (iblk1 V c 4 t : Vec Ideal S1x16 .f32) (ix2 (0 : Fin 1) o) = (V c main_v26 : S1x16.Idx → Elt Ideal .f32) (ix2 (0 : Fin 1) o) := by
  obtain ⟨-, -, -, -, -, -, -, -, e0, e1, -⟩ := idx_facts1 t
  unfold iblk1
  rw [View.read_apply]
  show V c main_v26 _ = V c main_v26 _
  congr 1
  funext a
  apply Fin.ext
  match a with
  | ⟨0, _⟩ => show win1_4.index t (0 : Fin 2) * 1 + 1 * 0 = 0; omega
  | ⟨1, _⟩ => show win1_4.index t (1 : Fin 2) * 16 + 1 * o.val = o.val; omega

/-- The first output window's block at point t sends (p, q) to row 5000 t + p, column q of the array. -/
theorem emb1_5 (t : Fin cfg1.N) (p : Fin 5000) (q : Fin 64) (r : Fin 100000) (hr : r.val = t.val * 5000 + p.val) :
    (((cfg1.win 5).blk t).view.emb (ix2 p q) : S100000x64.Idx) = ix2 r q := by
  obtain ⟨-, -, -, -, -, -, -, -, -, -, e0, e1, -⟩ := idx_facts1 t
  funext a
  apply Fin.ext
  match a with
  | ⟨0, _⟩ => show win1_5.index t (0 : Fin 2) * 5000 + 1 * p.val = r.val; omega
  | ⟨1, _⟩ => show win1_5.index t (1 : Fin 2) * 64 + 1 * q.val = q.val; omega

/-- The second output window's block at point t sends (p, o) to row 5000 t + p, column o of the array. -/
theorem emb1_6 (t : Fin cfg1.N) (p : Fin 5000) (o : Fin 16) (r : Fin 100000) (hr : r.val = t.val * 5000 + p.val) :
    (((cfg1.win 6).blk t).view.emb (ix2 p o) : S100000x16.Idx) = ix2 r o := by
  obtain ⟨-, -, -, -, -, -, -, -, -, -, -, -, e0, e1⟩ := idx_facts1 t
  funext a
  apply Fin.ext
  match a with
  | ⟨0, _⟩ => show win1_6.index t (0 : Fin 2) * 5000 + 1 * p.val = r.val; omega
  | ⟨1, _⟩ => show win1_6.index t (1 : Fin 2) * 16 + 1 * o.val = o.val; omega

/-- The first closed form at row r, column q. -/
theorem Gh_ix2 (a : S100000x64.Idx → Elt Ideal .f32) (d : S100000x1.Idx → Elt Ideal .f32) (b : S1x64.Idx → Elt Ideal .f32)
    (r : Fin 100000) (q : Fin 64) :
    Gh a d b (ix2 r q) = max (a (ix2 r q) * d (ix2 r (0 : Fin 1)) + b (ix2 (0 : Fin 1) q)) 0 := rfl

/-- The second closed form at row r, column o. -/
theorem Gz_ix2 (a : S100000x64.Idx → Elt Ideal .f32) (d : S100000x1.Idx → Elt Ideal .f32) (b : S1x64.Idx → Elt Ideal .f32)
    (wo : S64x16.Idx → Elt Ideal .f32) (bo : S1x16.Idx → Elt Ideal .f32) (r : Fin 100000) (o : Fin 16) :
    Gz a d b wo bo (ix2 r o) = (∑ k : Fin 64, Gh a d b (ix2 r k) * wo (ix2 k o)) + bo (ix2 (0 : Fin 1) o) := rfl

/-- The first payload of point t's blocks at (p, q) is the first closed form of the arrays at row 5000 t + p. -/
theorem pay1_blk (c : Dev nD) (t : Fin cfg1.N) (p : Fin 5000) (q : Fin 64) (r : Fin 100000) (hr : r.val = t.val * 5000 + p.val) :
    k1_pay1 (F := Ideal) (iblk1 V c 0 t) (iblk1 V c 1 t) (iblk1 V c 2 t) (ix2 p q)
      = Gh (V c main_v24) (V c main_v12) (V c main_v25) (ix2 r q) := by
  refine (pay1_at _ _ _ p q).trans ?_
  refine Eq.trans ?_ (Gh_ix2 _ _ _ r q).symm
  rw [iblk1_0_apply V c t p q r hr, iblk1_1_apply V c t p r hr, iblk1_2_apply V c t q]

/-- What point t writes back to the first output is block t of its closed form. -/
theorem flushed1_h_eq (c : Dev nD) (t : Fin cfg1.N) :
    (dat1 (F := Ideal) V c).flushed 5 t
      = ((cfg1.win 5).blk t).view.read (Elt Ideal) (Gh (V c main_v24) (V c main_v12) (V c main_v25)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2, View.ld_unit_zero (S := S1x64) hz2]
  have ht : t.val < 20 := lt_of_lt_of_eq t.isLt N_1
  funext y
  obtain ⟨p, q, rfl⟩ : ∃ (p : Fin 5000) (q : Fin 64), y = ix2 p q := ⟨y 0, y 1, eq_ix2 y⟩
  have hp : p.val < 5000 := p.isLt
  obtain ⟨r, hr⟩ : ∃ r : Fin 100000, r.val = t.val * 5000 + p.val := ⟨⟨t.val * 5000 + p.val, by omega⟩, rfl⟩
  show k1_pay1 (F := Ideal) (iblk1 V c 0 t) (iblk1 V c 1 t) (iblk1 V c 2 t) (ix2 p q)
    = Gh (V c main_v24) (V c main_v12) (V c main_v25) (((cfg1.win 5).blk t).view.emb (ix2 p q))
  exact (pay1_blk V c t p q r hr).trans
    (congrArg (Gh (V c main_v24) (V c main_v12) (V c main_v25)) (emb1_5 t p q r hr).symm)

/-- What point t writes back to the second output is block t of its closed form. -/
theorem flushed1_z_eq (c : Dev nD) (t : Fin cfg1.N) :
    (dat1 (F := Ideal) V c).flushed 6 t
      = ((cfg1.win 6).blk t).view.read (Elt Ideal)
          (Gz (V c main_v24) (V c main_v12) (V c main_v25) (V c main_arg4) (V c main_v26)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2, View.ld_unit_zero (S := S1x64) hz2,
    View.ld_unit_zero (S := S64x16) hz2, View.ld_unit_zero (S := S1x16) hz2]
  have ht : t.val < 20 := lt_of_lt_of_eq t.isLt N_1
  funext y
  obtain ⟨p, o, rfl⟩ : ∃ (p : Fin 5000) (o : Fin 16), y = ix2 p o := ⟨y 0, y 1, eq_ix2 y⟩
  have hp : p.val < 5000 := p.isLt
  obtain ⟨r, hr⟩ : ∃ r : Fin 100000, r.val = t.val * 5000 + p.val := ⟨⟨t.val * 5000 + p.val, by omega⟩, rfl⟩
  show k1_pay2 (F := Ideal) (iblk1 V c 0 t) (iblk1 V c 1 t) (iblk1 V c 2 t) (iblk1 V c 3 t) (iblk1 V c 4 t) (ix2 p o)
    = Gz (V c main_v24) (V c main_v12) (V c main_v25) (V c main_arg4) (V c main_v26) (((cfg1.win 6).blk t).view.emb (ix2 p o))
  refine (pay2_at _ _ _ _ _ p o).trans ?_
  refine Eq.trans ?_ (congrArg (Gz (V c main_v24) (V c main_v12) (V c main_v25) (V c main_arg4) (V c main_v26)) (emb1_6 t p o r hr).symm)
  refine Eq.trans ?_ (Gz_ix2 _ _ _ _ _ r o).symm
  refine congrArg₂ (· + ·) (Finset.sum_congr rfl fun k _ => congrArg₂ (· * ·) ?_ ?_) ?_
  · exact pay1_blk V c t p k r hr
  · exact iblk1_3_apply V c t k o
  · exact iblk1_4_apply V c t o

/-- An index of the first output array is in point t's block iff each coordinate is in the block's range on its axis. -/
theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27_0).slice (win1_5.rect t)).set ↔ _
  rw [View.set_slice_whole, Rect.mem_set_unit]
  exact Iff.rfl

/-- The same for the second output array. -/
theorem mem_blk1_6 (t : Fin cfg1.N) (i : S100000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v27_1).slice (win1_6.rect t)).set ↔ _
  rw [View.set_slice_whole, Rect.mem_set_unit]
  exact Iff.rfl

/-- Row r of the first output array is in the block of point r / 5000, which writes back. -/
theorem cover1_h (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, e0, e1, -⟩ := idx_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- Row r of the second output array is in the block of point r / 5000, which writes back. -/
theorem cover1_z (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, -, -, e0, e1⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 16 ≤ (i 1).val ∧ (i 1).val < win1_6.index t (1 : Fin 2) * 16 + 16; omega

/-- Region 1's first output array after the region: its closed form of the arrays the region finds. -/
theorem final1_h (c : Dev nD) : (dat1 (F := Ideal) V c).arrAt 5 cfg1.N = Gh (V c main_v24) (V c main_v12) (V c main_v25) :=
  (dat1 (F := Ideal) V c).arrAt_eq_of_cover 5 (Gh (V c main_v24) (V c main_v12) (V c main_v25))
    (fun t _ => flushed1_h_eq V c t) cover1_h

/-- Region 1's second output array after the region: its closed form of the arrays the region finds. -/
theorem final1_z (c : Dev nD) : (dat1 (F := Ideal) V c).arrAt 6 cfg1.N
    = Gz (V c main_v24) (V c main_v12) (V c main_v25) (V c main_arg4) (V c main_v26) :=
  (dat1 (F := Ideal) V c).arrAt_eq_of_cover 6 (Gz (V c main_v24) (V c main_v12) (V c main_v25) (V c main_arg4) (V c main_v26))
    (fun t _ => flushed1_z_eq V c t) cover1_z

end Cert.KernelIdeal.RegionValues
end
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«119838_j30983894073976_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«119838_j30983894073976_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.GcnAlgebra.lean ====
/-
  The one algebraic law behind the two arrangements of the normalised aggregation.

  Node v collects, over the edges e that end at v, a message. One arrangement scales every message by the factor of its
  own end node inside the sum; the other sums first and scales the total once. On the extended reals a sum may be
  scaled term by term only by a factor that is finite and not negative. The factor here is the inverse square root
  of the node's degree, and the degree counts exactly the edges the sum runs over: if no edge ends at v both sums are
  empty and both sides are zero; if one does, the degree is a positive whole number and its inverse square root a
  positive real.
-/
import Idealize.ShloMosaic.PureOps.Ideal
import Idealize.ShloMosaic.Lib.ValueIdx
import proofs.«119838_j30983894073976_2_alg».proof.Proof.LibScatterRowsCols
import proofs.«119838_j30983894073976_2_alg».proof.Proof.LibScatterVec

noncomputable section

open scoped BigOperators

namespace Cert.Gcn

open Idealize.ShloMosaic Idealize.ShloMosaic.ValueIdx Cert.Lib

/-- A finite sum of extended reals is scaled term by term by a factor that is finite and not negative. -/
theorem sum_mul_of_nonneg_ne_top {ι : Type} (s : Finset ι) (f : ι → EReal) (d : EReal) (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- A sum of ones over a finite set is the number of its elements. -/
theorem sum_one_eq_card {ι : Type} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The inverse square root of a positive whole number is a real that is not negative. -/
theorem rsqrt_card_ok (n : ℕ) (hn : 0 < n) :
    0 ≤ Ideal.rsqrt (((n : ℝ)) : EReal) ∧ Ideal.rsqrt (((n : ℝ)) : EReal) ≠ ⊤ := by
  have hpos : (0 : ℝ) < n := by exact_mod_cast hn
  rw [Ideal.rsqrt_coe, if_neg (not_lt.mpr hpos.le), if_neg hpos.ne']
  exact ⟨by exact_mod_cast (inv_nonneg.mpr (Real.sqrt_nonneg _)), EReal.coe_ne_top _⟩

variable {N M C w : Nat}

/-- THE DEGREE'S INVERSE SQUARE ROOT IS A GOOD FACTOR where an edge ends: the accumulating scatter of ones into a zero
    vector counts, at p, the updates whose index word is p; with at least one of them the count is positive. -/
theorem degree_rsqrt_ok (d1 : ScatterDims ⟨1, ![N]⟩ ⟨2, ![M, 1]⟩ ⟨1, ![M]⟩) (h1 : IsVecScatter d1)
    (x : (⟨1, ![N]⟩ : Shape).Idx → EReal) (idx : IVec ⟨2, ![M, 1]⟩ w) (ones : (⟨1, ![M]⟩ : Shape).Idx → EReal)
    (p : Fin N) (hx : x (ix1 p) = 0) (hones : ∀ j, ones j = 1)
    (hex : ∃ r : Fin M, (idx (ix2 r (0 : Fin 1))).toInt = (p.val : Int)) :
    0 ≤ Ideal.rsqrt (Ideal.hostScatterAdd d1 x idx ones (ix1 p))
      ∧ Ideal.rsqrt (Ideal.hostScatterAdd d1 x idx ones (ix1 p)) ≠ ⊤ := by
  unfold Ideal.hostScatterAdd
  rw [hx, zero_add, Finset.sum_congr rfl (fun j _ => hones j), sum_one_eq_card]
  apply rsqrt_card_ok
  obtain ⟨r, hr⟩ := hex
  exact Finset.card_pos.mpr ⟨ix1 r, by
    rw [Finset.mem_filter]
    exact ⟨Finset.mem_univ _, (vec_resultIdx? d1 h1 (ix1 r) idx (ix1 p)).mpr hr⟩⟩

/-- SUM THEN SCALE IS SCALE THEN SUM. Two accumulating scatters of rows into zero matrices over one index array, read at
    (p, c): if every update row r whose index word is p satisfies updK (r, c) · d = updR (r, c), and d is finite and not
    negative as soon as some index word is p, then the first scatter's entry times d is the second scatter's entry. -/
theorem scatter_rows_scale (dK dR : ScatterDims ⟨2, ![N, C]⟩ ⟨2, ![M, 1]⟩ ⟨2, ![M, C]⟩)
    (hK : IsRowScatter dK) (hR : IsRowScatter dR)
    (xK xR : (⟨2, ![N, C]⟩ : Shape).Idx → EReal) (idx : IVec ⟨2, ![M, 1]⟩ w)
    (updK updR : (⟨2, ![M, C]⟩ : Shape).Idx → EReal) (d : EReal) (p : Fin N) (c : Fin C)
    (hxK : xK (ix2 p c) = 0) (hxR : xR (ix2 p c) = 0)
    (hd : (∃ r : Fin M, (idx (ix2 r (0 : Fin 1))).toInt = (p.val : Int)) → 0 ≤ d ∧ d ≠ ⊤)
    (hupd : ∀ r : Fin M, (idx (ix2 r (0 : Fin 1))).toInt = (p.val : Int) → updK (ix2 r c) * d = updR (ix2 r c)) :
    Ideal.hostScatterAdd dK xK idx updK (ix2 p c) * d = Ideal.hostScatterAdd dR xR idx updR (ix2 p c) := by
  unfold Ideal.hostScatterAdd
  rw [hxK, hxR, zero_add, zero_add]
  have hfilt : (Finset.univ.filter fun j => dR.resultIdx? j idx = some (ix2 p c))
      = (Finset.univ.filter fun j => dK.resultIdx? j idx = some (ix2 p c)) :=
    Finset.filter_congr fun j _ => by rw [row_resultIdx? dK hK, row_resultIdx? dR hR]
  rw [hfilt]
  by_cases hne : (Finset.univ.filter fun j => dK.resultIdx? j idx = some (ix2 p c)).Nonempty
  · obtain ⟨j0, hj0⟩ := hne
    rw [Finset.mem_filter] at hj0
    have h0 := (row_resultIdx? dK hK j0 idx (ix2 p c)).mp hj0.2
    obtain ⟨hd0, hdt⟩ := hd ⟨j0 0, h0.1⟩
    rw [sum_mul_of_nonneg_ne_top _ _ _ hd0 hdt]
    refine Finset.sum_congr rfl fun j hj => ?_
    rw [Finset.mem_filter] at hj
    have hj' := (row_resultIdx? dK hK j idx (ix2 p c)).mp hj.2
    have hc : j 1 = c := Fin.ext hj'.2
    have hjj : j = ix2 (j 0) c := by rw [← hc]; exact eq_ix2 j
    rw [hjj]
    exact hupd (j 0) hj'.1
  · rw [Finset.not_nonempty_iff_eq_empty] at hne
    rw [hne, Finset.sum_empty, Finset.sum_empty, zero_mul]

end Cert.Gcn

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Bridge.lean ====
/-
  The two results of the idealized kernel are the reference's two results.

  FIRST RESULT. At (v, j) the kernel holds max (A (v, j) · dinv v + b j, 0), where A accumulates, over the edges that
  end at v, the gathered rows xw (src e) · dinv (src e) (the first region scaled each row of x · W by its own node's
  factor). The reference holds max (B (v, j) + b j, 0), where B accumulates xw (src e) · (dinv (src e) · dinv (dst e))
  over the same edges. For an edge that ends at v the end node's factor is dinv v — its index word is the node number
  v, which wrapping and clamping leave alone —, so term by term (xw · dinv (src e)) · dinv v = xw · (dinv (src e) ·
  dinv v) by associativity, and the sum may be scaled term by term because dinv v is a positive real as soon as one
  edge ends at v (the degree counts those very edges); with no such edge both sums are empty.
  SECOND RESULT. Both programs multiply the first result by the output weights and add the output bias.
-/
import proofs.«119838_j30983894073976_2_alg».proof.Proof.HostValues
import proofs.«119838_j30983894073976_2_alg».proof.Proof.RefRead
import proofs.«119838_j30983894073976_2_alg».proof.Proof.RegionValues
import proofs.«119838_j30983894073976_2_alg».proof.Proof.GcnAlgebra
import proofs.«119838_j30983894073976_2_alg».proof.Proof.LibColumnCast
import Idealize.ShloMosaic.Lib.ValueLayout
import Idealize.ShloMosaic.Lib.IdealHost

set_option maxRecDepth 16384

noncomputable section

open scoped BigOperators

namespace Cert.Bridge

open Cert.KernelIdeal Cert.KernelIdeal.Gen Cert.KernelIdeal.HostValues Cert.KernelIdeal.RegionValues
open Cert.ReferenceIdeal.Read Cert.ReferenceIdeal.RefRead
open Idealize.ShloMosaic Idealize.ShloMosaic.TcCoe Idealize.ShloMosaic.ValueIdx Idealize.SL.Sem Cert.Lib Cert.Gcn

variable (m : (ℓ : Loc nD τ sig) → Buf (Elt Ideal) ℓ) (ρ : Dev nD → PrngReg) (c : Dev nD)

/-! ## The records' dimension numbers -/

theorem rowScatterK : IsRowScatter Cert.KernelIdeal.scatter_S100000x64_S3300000x1_S3300000x64_1_0_0_1 := ⟨rfl, rfl, rfl, rfl⟩
theorem rowScatterR : IsRowScatter Cert.ReferenceIdeal.scatter_S100000x64_S3300000x1_S3300000x64_1_0_0_1 := ⟨rfl, rfl, rfl, rfl⟩
theorem vecScatterR : IsVecScatter Cert.ReferenceIdeal.scatter_S100000_S3300000x1_S3300000_n_0_0_1 := ⟨rfl, rfl, rfl, rfl⟩
theorem rowGatherK : IsRowGather Cert.KernelIdeal.gather_S100000x64_S3300000x1_S3300000x64_1_0_n_n_0_1_164 := ⟨rfl, rfl, rfl, rfl, rfl, rfl, rfl⟩

/-! ## The constant arrays -/

theorem zeros2_at (i : Cert.ReferenceIdeal.S100000x64.Idx) : val_main_v38 (F := Ideal) i = 0 :=
  (val_main_v38_apply i).trans ((val_main_cst_6_apply _).trans Ideal.ofBits_zero_f32)
theorem zeros1_at (i : Cert.ReferenceIdeal.S100000.Idx) : val_main_v8 (F := Ideal) i = 0 :=
  (val_main_v8_apply i).trans ((val_main_cst_0_apply _).trans Ideal.ofBits_zero_f32)
theorem ones_at (i : Cert.ReferenceIdeal.S3300000.Idx) : val_main_v7 (F := Ideal) i = 1 :=
  (val_main_v7_apply i).trans ((val_main_cst_apply _).trans Ideal.ofBits_one_f32)

/-- The two end-node index columns (the degree's and the aggregation's) are one array. -/
theorem dst_cols_eq (x1 : (⟨Cert.ReferenceIdeal.S2x3200000, .i32⟩ : BufTy).Contents (Elt Ideal)) :
    val_main_v9 (F := Ideal) x1 = val_main_v39 (F := Ideal) x1 := rfl

/-- A node's factor is the inverse square root of its degree, the degree an accumulating scatter of ones. -/
theorem dinv_at (x1 : (⟨Cert.ReferenceIdeal.S2x3200000, .i32⟩ : BufTy).Contents (Elt Ideal)) (v : Fin 100000) :
    val_main_v11 (F := Ideal) x1 (ix1 v)
      = Ideal.rsqrt (Ideal.hostScatterAdd Cert.ReferenceIdeal.scatter_S100000_S3300000x1_S3300000_n_0_0_1
          (val_main_v8 (F := Ideal)) (val_main_v39 (F := Ideal) x1) (val_main_v7 (F := Ideal)) (ix1 v)) := by
  refine (val_main_v11_apply x1 (ix1 v)).trans ?_
  rw [Ideal.hostUnary_rsqrt_def]
  unfold val_main_v10
  rw [hostScatterAdd_ideal, dst_cols_eq x1]

/-- Where an edge ends the node's factor is finite and not negative. -/
theorem dinv_ok (x1 : (⟨Cert.ReferenceIdeal.S2x3200000, .i32⟩ : BufTy).Contents (Elt Ideal)) (v : Fin 100000)
    (hex : ∃ r : Fin 3300000, (val_main_v39 (F := Ideal) x1 (ix2 r (0 : Fin 1))).toInt = (v.val : Int)) :
    0 ≤ val_main_v11 (F := Ideal) x1 (ix1 v) ∧ val_main_v11 (F := Ideal) x1 (ix1 v) ≠ ⊤ := by
  rw [dinv_at]
  exact degree_rsqrt_ok _ vecScatterR _ _ _ v (zeros1_at _) ones_at hex

/-! ## The aggregate, scaled -/

/-- THE AGGREGATE: the kernel's accumulated gathered rows at (v, j), times node v's factor, are the reference's
    accumulated scaled messages at (v, j). Edge by edge: the gathered row of an edge r that ends at v is row (src r) of
    x · W times dinv (src r); times dinv v it is the reference's message, row (src r) of x · W times
    dinv (src r) · dinv (dst r), because dst r is v. -/
theorem agg_scaled (v : Fin 100000) (j : Fin 64)
    (a : S100000x64.Idx → Elt Ideal .f32) (d : S100000x1.Idx → Elt Ideal .f32)
    (ha : a = Host.scatterAdd (F := Ideal) Cert.KernelIdeal.scatter_S100000x64_S3300000x1_S3300000x64_1_0_0_1 (val_main_v38 (F := Ideal))
        (val_main_v39 (F := Ideal) (m ((c : Thread nD τ).loc main_arg1)))
        (extf (F := Ideal) .f32 (Host.gather Cert.KernelIdeal.gather_S100000x64_S3300000x1_S3300000x64_1_0_n_n_0_1_164
          ((dat0 (F := Ideal) (V1 m ρ) c).arrAt 3 cfg0.N) (val_main_v33 (F := Ideal) (m ((c : Thread nD τ).loc main_arg1)))) bitsLt_bf16_f32))
    (hd : d = shapeCast S100000x1 (val_main_v11 (F := Ideal) (m ((c : Thread nD τ).loc main_arg1))) shapeCasts_S100000_S100000x1) :
    a (ix2 v j) * d (ix2 v (0 : Fin 1)) = val_main_v40 (F := Ideal) (m ((c : Thread nD τ).loc main_arg0)) (m ((c : Thread nD τ).loc main_arg1)) (m ((c : Thread nD τ).loc main_arg2)) (ix2 v j) := by
  subst ha hd
  rw [Cert.LibColumnCast.shapeCast_a_a1_apply, hostScatterAdd_ideal]
  unfold val_main_v40
  rw [hostScatterAdd_ideal]
  refine scatter_rows_scale _ _ rowScatterK rowScatterR _ _ _ _ _ _ v j (zeros2_at _) (zeros2_at _)
    (dinv_ok (m ((c : Thread nD τ).loc main_arg1)) v) (fun r hr => ?_)
  rw [extf_apply, msg_at, dstN_row (m ((c : Thread nD τ).loc main_arg1)) r v hr, row_gather_apply hN _ rowGatherK, final0 (V1 m ρ) c,
    V1_arg0 m ρ c, V1_arg2 m ρ c, V1_v12 m ρ c, Gxws_ix2, Cert.LibColumnCast.shapeCast_a_a1_apply]
  exact mul_assoc _ _ _

/-! ## The two results -/

/-- The first result. -/
theorem kernel_h : (dat1 (F := Ideal) (V3 m ρ) c).arrAt 5 cfg1.N = val_main_v44 (F := Ideal) (m ((c : Thread nD τ).loc main_arg0)) (m ((c : Thread nD τ).loc main_arg1)) (m ((c : Thread nD τ).loc main_arg2)) (m ((c : Thread nD τ).loc main_arg3)) := by
  rw [final1_h (V3 m ρ) c]
  funext i
  obtain ⟨v, j, rfl⟩ : ∃ (v : Fin 100000) (j : Fin 64), i = ix2 v j := ⟨i 0, i 1, eq_ix2 i⟩
  rw [h_at, Gh_ix2, agg_scaled m ρ c v j _ _ (V3_v24 m ρ c) (V3_v12 m ρ c), V3_v25 m ρ c, shapeCast_a_1a_apply]

/-- The second result. -/
theorem kernel_z : (dat1 (F := Ideal) (V3 m ρ) c).arrAt 6 cfg1.N
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final1_z (V3 m ρ) c]
  funext i
  obtain ⟨v, o, rfl⟩ : ∃ (v : Fin 100000) (o : Fin 16), i = ix2 v o := ⟨i 0, i 1, eq_ix2 i⟩
  rw [z_at, Gz_ix2, ← final1_h (V3 m ρ) c, kernel_h m ρ c, V3_arg4 m ρ c, V3_v26 m ρ c, shapeCast_a_1a_apply]

end Cert.Bridge

end
-- ==== Proof.lean ====
/-
  The certificate of the graph-convolution kernel against its reference.

  Five claims. The three frames: each program runs to the end without a fault and leaves its arguments as they were
  (for the two kernel programs the generated frame of the two pipelined regions among their host operations; for the
  reference its generated run with the results dropped). The idealization rewrote nothing, so the kernel's idealized
  program is its own text read on the extended reals. And the value claim: on the extended reals the kernel program's two
  results are the reference's. The kernel scales each row of x · W by its own node's factor before the rows are gathered
  along the edges and accumulated by end node, and scales the accumulated total by the end node's factor afterwards;
  the reference scales every gathered row by the product of the two factors inside the sum. The two agree because
  the end node's factor is a positive real wherever an edge ends (the degree counts exactly the accumulated edges),
  so the total may be scaled term by term; the rectifier, the bias and the output head are then the same on both sides.
-/
import proofs.«119838_j30983894073976_2_alg».proof.Defs
import proofs.«119838_j30983894073976_2_alg».proof.Proof.Gen.Kernel
import proofs.«119838_j30983894073976_2_alg».proof.Proof.Gen.Kernel.Skeleton
import proofs.«119838_j30983894073976_2_alg».proof.Proof.Gen.Kernel.Launch
import proofs.«119838_j30983894073976_2_alg».proof.Proof.Gen.Kernel.Points
import proofs.«119838_j30983894073976_2_alg».proof.Proof.Gen.Kernel.Frame
import proofs.«119838_j30983894073976_2_alg».proof.Proof.Gen.KernelIdeal
import proofs.«119838_j30983894073976_2_alg».proof.Proof.Gen.KernelIdeal.Skeleton
import proofs.«119838_j30983894073976_2_alg».proof.Proof.Gen.KernelIdeal.Launch
import proofs.«119838_j30983894073976_2_alg».proof.Proof.Gen.KernelIdeal.Points
import proofs.«119838_j30983894073976_2_alg».proof.Proof.Gen.KernelIdeal.Frame
import proofs.«119838_j30983894073976_2_alg».proof.Proof.Gen.ReferenceIdeal
import proofs.«119838_j30983894073976_2_alg».proof.Proof.Gen.Pre_finite_inputs
import proofs.«119838_j30983894073976_2_alg».proof.Proof.Gen.ReferenceIdeal.Run
import proofs.«119838_j30983894073976_2_alg».proof.Proof.Gen.ReferenceIdeal.Read
import proofs.«119838_j30983894073976_2_alg».proof.Proof.KernelRun
import proofs.«119838_j30983894073976_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs run; the kernel program's two result buffers end at the reference's two stages of the arguments, and
    so do the reference's, from memories that agree on the arguments. -/
theorem algebraic : Cert.algebraic_KernelIdeal_ReferenceIdeal := by
  intro m ρ m' ρ' _ hagree
  refine ⟨fun c => Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.Read.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunNamed.run_named (F := Ideal) m ρ)
    obtain ⟨h0, h1, ha⟩ := h c
    exact ⟨h0.trans ((Cert.KernelIdeal.RunNamed.out_h m ρ c).trans (Cert.Bridge.kernel_h m ρ c)),
      h1.trans ((Cert.KernelIdeal.RunNamed.out_z m ρ c).trans (Cert.Bridge.kernel_z m ρ c)), ha⟩
  · refine (θ_run Cert.ReferenceIdeal.defs _ _).mono (fun r h c => ?_) (Cert.ReferenceIdeal.Value.run (F := Ideal) m' ρ')
    obtain ⟨h0, h1, ha⟩ := h c
    refine ⟨h0.trans ?_, h1.trans ?_, ha⟩
    · rw [Cert.ReferenceIdeal.Read.val_main_v44_eq, (hagree c).1, (hagree c).2.1, (hagree c).2.2.1, (hagree c).2.2.2.1]
    · rw [Cert.ReferenceIdeal.Read.val_main_v48_eq, (hagree c).1, (hagree c).2.1, (hagree c).2.2.1, (hagree c).2.2.2.1,
        (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
